-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x4 : Shape := ⟨2, ![2048, 4]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8x4096x2048 .f32) (main_arg1 : FVec F S2048x4 .f32) (main_arg2 : FVec F S2048 .f32) (main_arg3 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8x4096x2048 : Shape := ⟨3, ![8, 4096, 2048]⟩
abbrev S2048x4 : Shape := ⟨2, ![2048, 4]⟩
abbrev S2048 : Shape := ⟨1, ![2048]⟩
abbrev S4x2048 : Shape := ⟨2, ![4, 2048]⟩
abbrev S1x2048 : Shape := ⟨2, ![1, 2048]⟩
abbrev S1x1024x2048 : Shape := ⟨3, ![1, 1024, 2048]⟩
abbrev S8x2048 : Shape := ⟨2, ![8, 2048]⟩
abbrev S1024x2048 : Shape := ⟨2, ![1024, 2048]⟩
abbrev S1024 : Shape := ⟨1, ![1024]⟩
abbrev S1024x1 : Shape := ⟨2, ![1024, 1]⟩
abbrev S3x2048 : Shape := ⟨2, ![3, 2048]⟩
abbrev S11x2048 : Shape := ⟨2, ![11, 2048]⟩
abbrev S1016x2048 : Shape := ⟨2, ![1016, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048x4, .f32⟩
  | .hbm, ⟨2, _⟩ => ⟨S2048, .f32⟩
  | .hbm, ⟨3, _⟩ => ⟨S2048, .f32⟩
  | .hbm, ⟨4, _⟩ => ⟨S4x2048, .f32⟩
  | .hbm, ⟨5, _⟩ => ⟨S1x2048, .f32⟩
  | .hbm, ⟨6, _⟩ => ⟨S1x2048, .f32⟩
  | .hbm, ⟨7, _⟩ => ⟨S8x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S4x2048, .f32⟩
  | .local _ .vmem, ⟨3, _⟩ => ⟨S1x2048, .f32⟩
  | .local _ .vmem, ⟨4, _⟩ => ⟨S1x2048, .f32⟩
  | .local _ .vmem, ⟨5, _⟩ => ⟨S1x1024x2048, .f32⟩
  | .local _ .vmem, ⟨6, _⟩ => ⟨S1x1024x2048, .f32⟩
  | .local _ .vmem, ⟨7, _⟩ => ⟨S8x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S2048x4_S4x2048_1_0 : S2048x4.Transposes [1, 0] S4x2048
  shapeCasts_S2048_S1x2048 : S2048.ShapeCasts S1x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  rotates_S1024x2048_d0 : S1024x2048.Rotates 0 none
  slices_S4x2048_o0_0_S1x2048 : S4x2048.Slices ![0, 0] S1x2048
  shapeCasts_S1x2048_S2048 : S1x2048.ShapeCasts S2048
  slices_S4x2048_o1_0_S1x2048 : S4x2048.Slices ![1, 0] S1x2048
  slices_S4x2048_o2_0_S1x2048 : S4x2048.Slices ![2, 0] S1x2048
  slices_S4x2048_o3_0_S1x2048 : S4x2048.Slices ![3, 0] S1x2048
  inb_S8x2048_S3x2048_5_0 : ∀ a, (![5, 0] : Fin 2 → Nat) a + S3x2048.size a ≤ S8x2048.size a
  h_S3x2048 : 0 < S3x2048.numel
  slices_S1024x2048_o0_0_S8x2048 : S1024x2048.Slices ![0, 0] S8x2048
  concatenates_S3x2048_S8x2048_S11x2048_d0 : Shape.Concatenates [S3x2048, S8x2048] S11x2048 0
  slices_S11x2048_o0_0_S8x2048 : S11x2048.Slices ![0, 0] S8x2048
  broadcasts_S1x2048_S8x2048 : S1x2048.Broadcasts S8x2048
  slices_S11x2048_o1_0_S8x2048 : S11x2048.Slices ![1, 0] S8x2048
  slices_S11x2048_o2_0_S8x2048 : S11x2048.Slices ![2, 0] S8x2048
  slices_S11x2048_o3_0_S8x2048 : S11x2048.Slices ![3, 0] S8x2048
  slices_S1024x2048_o8_0_S1016x2048 : S1024x2048.Slices ![8, 0] S1016x2048
  concatenates_S8x2048_S1016x2048_S1024x2048_d0 : Shape.Concatenates [S8x2048, S1016x2048] S1024x2048 0
  shapeCasts_S1024x2048_S1x1024x2048 : S1024x2048.ShapeCasts S1x1024x2048
  slices_S1024x2048_o1016_0_S8x2048 : S1024x2048.Slices ![1016, 0] S8x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x4096x2048.size a
  hwx0_4 : ∀ i : grid0.Coords, EltTy.bits .f32 = 32 ∨ (Rect.block (s := S8x4096x2048) S1x1024x2048.size (cc0_transform_4 i) (hinb0_4 i)).WholeWords (EltTy.packing .f32)

variable [Facts₀]

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048x4 : Shape := ⟨2, ![2048, 4]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4099x2048 : Shape := ⟨3, ![8, 4099, 2048]⟩
abbrev S2048x1 : Shape := ⟨2, ![2048, 1]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x4, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x2048, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | .hbm, ⟨30, _⟩ => ⟨S1x1x2048, .f32⟩
  | .hbm, ⟨31, _⟩ => ⟨S8x4096x2048, .f32⟩
  | .hbm, ⟨32, _⟩ => ⟨S8x4096x2048, .f32⟩
  | .hbm, ⟨33, _⟩ => ⟨S_, .i32⟩
  | .hbm, ⟨34, _⟩ => ⟨S_, .f32⟩
  | .hbm, ⟨35, _⟩ => ⟨S8x4099x2048, .f32⟩
  | .hbm, ⟨36, _⟩ => ⟨S_, .f32⟩
  | .hbm, ⟨37, _⟩ => ⟨S8x4096x2048, .f32⟩
  | .hbm, ⟨38, _⟩ => ⟨S2048x1, .f32⟩
  | .hbm, ⟨39, _⟩ => ⟨S2048, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S8x4096x2048, .f32⟩
  | .hbm, ⟨44, _⟩ => ⟨S1x1x2048, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S2048x1, .f32⟩
  | .hbm, ⟨49, _⟩ => ⟨S2048, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S8x4096x2048, .f32⟩
  | .hbm, ⟨54, _⟩ => ⟨S1x1x2048, .f32⟩
  | .hbm, ⟨55, _⟩ => ⟨S8x4096x2048, .f32⟩
  | .hbm, ⟨56, _⟩ => ⟨S8x4096x2048, .f32⟩
  | .hbm, ⟨57, _⟩ => ⟨S8x4096x2048, .f32⟩
  | .hbm, ⟨58, _⟩ => ⟨S2048x1, .f32⟩
  | .hbm, ⟨59, _⟩ => ⟨S2048, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S8x4096x2048, .f32⟩
  | .hbm, ⟨64, _⟩ => ⟨S1x1x2048, .f32⟩
  | .hbm, ⟨65, _⟩ => ⟨S8x4096x2048, .f32⟩
  | .hbm, ⟨66, _⟩ => ⟨S8x4096x2048, .f32⟩
  | .hbm, ⟨67, _⟩ => ⟨S8x4096x2048, .f32⟩
  | .hbm, ⟨68, _⟩ => ⟨S2048x1, .f32⟩
  | .hbm, ⟨69, _⟩ => ⟨S2048, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S8x4096x2048, .f32⟩
  | .hbm, ⟨74, _⟩ => ⟨S1x1x2048, .f32⟩
  | .hbm, ⟨75, _⟩ => ⟨S8x4096x2048, .f32⟩
  | .hbm, ⟨76, _⟩ => ⟨S8x4096x2048, .f32⟩
  | .hbm, ⟨77, _⟩ => ⟨S8x4096x2048, .f32⟩
  | .hbm, ⟨78, _⟩ => ⟨S8x4096x2048, .f32⟩
  | .hbm, ⟨79, _⟩ => ⟨S8x4096x2048, .f32⟩
  | .hbm, ⟨80, _⟩ => ⟨S_, .f32⟩
  | .hbm, ⟨81, _⟩ => ⟨S8x4096x2048, .f32⟩
  | .hbm, ⟨82, _⟩ => ⟨S8x4096x2048, .f32⟩
  | .hbm, ⟨83, _⟩ => ⟨S_, .f32⟩
  | .hbm, ⟨84, _⟩ => ⟨S8x4096x2048, .f32⟩
  | .hbm, ⟨85, _⟩ => ⟨S8x4096x2048, .f32⟩
  | .hbm, ⟨86, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_c_6 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_c_9 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_11 : Ref sig .tc := ⟨.hbm, 60, rfl⟩
abbrev main_c_12 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_14 : Ref sig .tc := ⟨.hbm, 70, rfl⟩
abbrev main_c_15 : Ref sig .tc := ⟨.hbm, 71, rfl⟩
abbrev main_c_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  reducesTo_S8x4096x2048_S8x4096_d2 : S8x4096x2048.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  pads_S8x4096x2048_S8x4099x2048_000_300_000 : S8x4096x2048.Pads (![0, 3, 0] : Fin 3 → Nat) ![0, 0, 0] ![0, 0, 0] S8x4099x2048
  bcast_S_S8x4096x2048 : S_.BroadcastsInDim S8x4096x2048 (![] : Fin 0 → Fin S8x4096x2048.rank)
  slices_S2048x4_S2048x1_0_0 : S2048x4.Slices ![0, 0] S2048x1
  shapeCasts_S2048x1_S2048 : S2048x1.ShapeCasts S2048
  sliceFits_S8x4099x2048_S8x4096x2048 : S8x4099x2048.Slices (fun _ => 0) S8x4096x2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1

variable [Facts₀]

class Facts : Prop extends Facts₀ where

variable [Facts]
-- ==== Proof.KPieces.lean ====
/-
  What one grid point's body leaves in the output block and in the carried eight-row buffer, as values.

  The body stores the output block once, whole, and the carried buffer once, whole, at its end (at the first time block
  of a batch row it also zeroes the carried buffer first). So what it leaves in each is that store's payload, with every
  load replaced by what the loaded buffer holds: the input blocks, and rows 5, 6, 7 of the carried buffer — of what the
  point before left there, or of the zeros just stored (`lastRows`).

  The carried buffer ends as the last eight normalised rows of the point's own block, whatever it held before.
-/
import proofs.«102148_j23570780520523_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows 5, 6, 7 of an eight-row buffer: the three rows just before the next block's first row. -/
def lastRows (car : Vec F S8x2048 .f32) : Vec F S3x2048 .f32 :=
  View.ld car (Rect.unit ![5, 0] ![3, 2048] inb_S8x2048_S3x2048_5_0)

/-- The output block's payload: the logistic tail over the head rows (which read `tail`) joined with the other rows. -/
def blockOf (x0 : Vec F S1x1024x2048 .f32) (x1 : Vec F S4x2048 .f32) (x2 x3 : Vec F S1x2048 .f32) (tail : Vec F S3x2048 .f32) :
    Vec F S1x1024x2048 .f32 :=
  k0_pay1 (k0_pay9 (k0_pay4 x0 x2 x3) (k0_pay5 x1) tail)
    (k0_pay10 (k0_pay4 x0 x2 x3) (k0_pay5 x1) k0_pay6 (k0_pay7 x0 x2 x3) (k0_pay8 x1))

/-- The carried buffer's payload: the last eight normalised rows of the block. -/
def carryOf (x0 : Vec F S1x1024x2048 .f32) (x2 x3 : Vec F S1x2048 .f32) : Vec F S8x2048 .f32 :=
  k0_pay2 (k0_pay4 x0 x2 x3)

/-- After a point that is not the first of its batch row, the carried buffer holds the block's last eight normalised rows. -/
theorem carry_B (c : Dev nD) (i : grid0.Coords) (a2 : Memref sig .tc .vmem S1x1024x2048 .f32) (h2 : a2.IsWhole) (a3 : Memref sig .tc .vmem S4x2048 .f32) (h3 : a3.IsWhole) (a4 : Memref sig .tc .vmem S1x2048 .f32) (h4 : a4.IsWhole) (a5 : Memref sig .tc .vmem S1x2048 .f32) (h5 : a5.IsWhole) (a6 : Memref sig .tc .vmem S1x1024x2048 .f32) (h6 : a6.IsWhole) (a7 : Memref sig .tc .vmem S8x2048 .f32) (h7 : a7.IsWhole) (hc : ¬cond0_0 i)
    (x0 : Vec F S1x1024x2048 .f32) (x1 : Vec F S4x2048 .f32) (x2 : Vec F S1x2048 .f32) (x3 : Vec F S1x2048 .f32) (xs : Vec F S8x2048 .f32) :
    sout0_B_0 c i a2 h2 a3 h3 a4 h4 a5 h5 a6 h6 a7 h7 hc x0 x1 x2 x3 xs = carryOf x0 x2 x3 := by
  unfold sout0_B_0
  rw [View.read_writes_eq_canon _ _ _ (scover0_B_0 c i a2 h2 a3 h3 a4 h4 a5 h5 a6 h6 a7 h7 hc x0 x1 x2 x3 xs)]
  unfold kernelRun0_B
  dsimp only
  sl_unfold_words
  rw [View.canon_unit_zero hz2]
  simp only [View.readAt_eq_ld, h2.read_unread, h4.read_unread, h5.read_unread, View.ld_unit_zero (S := S1x1024x2048) hz3, View.ld_unit_zero (S := S1x2048) hz2]
  rfl

/-- After the first point of a batch row too: the zeroing store is overwritten whole. -/
theorem carry_A (c : Dev nD) (i : grid0.Coords) (a2 : Memref sig .tc .vmem S1x1024x2048 .f32) (h2 : a2.IsWhole) (a3 : Memref sig .tc .vmem S4x2048 .f32) (h3 : a3.IsWhole) (a4 : Memref sig .tc .vmem S1x2048 .f32) (h4 : a4.IsWhole) (a5 : Memref sig .tc .vmem S1x2048 .f32) (h5 : a5.IsWhole) (a6 : Memref sig .tc .vmem S1x1024x2048 .f32) (h6 : a6.IsWhole) (a7 : Memref sig .tc .vmem S8x2048 .f32) (h7 : a7.IsWhole) (hc : cond0_0 i)
    (x0 : Vec F S1x1024x2048 .f32) (x1 : Vec F S4x2048 .f32) (x2 : Vec F S1x2048 .f32) (x3 : Vec F S1x2048 .f32) :
    sout0_A_0 c i a2 h2 a3 h3 a4 h4 a5 h5 a6 h6 a7 h7 hc x0 x1 x2 x3 = carryOf x0 x2 x3 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_cons_unit_zero (S := S8x2048) hz2]
  simp only [View.readAt_eq_ld, h2.read_unread, h4.read_unread, h5.read_unread, View.ld_unit_zero (S := S1x1024x2048) hz3, View.ld_unit_zero (S := S1x2048) hz2]
  rfl

/-- The output block at a point that is not the first of its batch row: its head rows read the last rows of what the
    point before left in the carried buffer. -/
theorem block_B (c : Dev nD) (i : grid0.Coords) (a2 : Memref sig .tc .vmem S1x1024x2048 .f32) (h2 : a2.IsWhole) (a3 : Memref sig .tc .vmem S4x2048 .f32) (h3 : a3.IsWhole) (a4 : Memref sig .tc .vmem S1x2048 .f32) (h4 : a4.IsWhole) (a5 : Memref sig .tc .vmem S1x2048 .f32) (h5 : a5.IsWhole) (a6 : Memref sig .tc .vmem S1x1024x2048 .f32) (h6 : a6.IsWhole) (a7 : Memref sig .tc .vmem S8x2048 .f32) (h7 : a7.IsWhole) (hc : ¬cond0_0 i)
    (x0 : Vec F S1x1024x2048 .f32) (x1 : Vec F S4x2048 .f32) (x2 : Vec F S1x2048 .f32) (x3 : Vec F S1x2048 .f32) (xs : Vec F S8x2048 .f32) :
    out0_B_4 c i a2 h2 a3 h3 a4 h4 a5 h5 a6 h6 a7 h7 hc x0 x1 x2 x3 xs = blockOf x0 x1 x2 x3 (lastRows xs) := by
  unfold out0_B_4
  rw [View.read_writes_eq_canon _ _ _ (cover0_B_4 c i a2 h2 a3 h3 a4 h4 a5 h5 a6 h6 a7 h7 hc x0 x1 x2 x3 xs)]
  unfold kernelRun0_B
  dsimp only
  sl_unfold_words
  rw [View.canon_unit_zero hz3]
  simp only [View.readAt_eq_ld, h2.read_unread, h3.read_unread, h4.read_unread, h5.read_unread, h7.read_unread, View.ld_unit_zero (S := S1x1024x2048) hz3, View.ld_unit_zero (S := S1x2048) hz2, View.ld_unit_zero (S := S4x2048) hz2]
  rfl

/-- The output block at the first point of a batch row: its head rows read the last rows of the zeros just stored. -/
theorem block_A (c : Dev nD) (i : grid0.Coords) (a2 : Memref sig .tc .vmem S1x1024x2048 .f32) (h2 : a2.IsWhole) (a3 : Memref sig .tc .vmem S4x2048 .f32) (h3 : a3.IsWhole) (a4 : Memref sig .tc .vmem S1x2048 .f32) (h4 : a4.IsWhole) (a5 : Memref sig .tc .vmem S1x2048 .f32) (h5 : a5.IsWhole) (a6 : Memref sig .tc .vmem S1x1024x2048 .f32) (h6 : a6.IsWhole) (a7 : Memref sig .tc .vmem S8x2048 .f32) (h7 : a7.IsWhole) (hc : cond0_0 i)
    (x0 : Vec F S1x1024x2048 .f32) (x1 : Vec F S4x2048 .f32) (x2 : Vec F S1x2048 .f32) (x3 : Vec F S1x2048 .f32) :
    out0_A_4 c i a2 h2 a3 h3 a4 h4 a5 h5 a6 h6 a7 h7 hc x0 x1 x2 x3 = blockOf x0 x1 x2 x3 (lastRows k0_pay3) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz3]
  simp only [View.readAt_eq_ld, h2.read_unread, h3.read_unread, h4.read_unread, h5.read_unread, View.ld_unit_zero (S := S1x1024x2048) hz3, View.ld_unit_zero (S := S1x2048) hz2, View.ld_unit_zero (S := S4x2048) hz2]
  rw [View.readCov_eq_canon_ld _ _ _ (fun y => ⟨_, List.mem_singleton_self _, View.mem_set_unit_zero hz2 inb_S8x2048_S8x2048_0_0 y⟩),
    View.canon_unit_zero hz2]
  rfl

end Cert.KernelIdeal.Pieces

end
-- ==== Proof.KWindows.lean ====
/-
  The blocks the grid points see, as entries of the argument arrays.

  The grid has 8 × 4 points, visited row-major: point t handles batch row t / 4 and time block t % 4, that is time steps
  1024·(t % 4) … 1024·(t % 4) + 1023. Its input block of `x` and its output block are those rows; the tap table, gamma and
  beta are handed whole at every point — the table transposed to 4 × 2048 and the two vectors as one row of 2048, by the
  three layout operations that precede the kernel's launch.
-/
import proofs.«102148_j23570780520523_2_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.Windows

open Cert.KernelIdeal Cert.KernelIdeal.Gen

variable (m : (ℓ : Loc nD τ sig) → Buf (Elt Ideal) ℓ)

/-- The printed index maps over the 32 points: the blocks of `x` and of the output move with (t / 4, t % 4); the other
    three windows never move. -/
theorem idx_facts : ∀ t : Fin cfg0.N,
    win0_0.index t (0 : Fin 3) = t.val / 4 ∧ win0_0.index t (1 : Fin 3) = t.val % 4 ∧ win0_0.index t (2 : Fin 3) = 0
    ∧ win0_4.index t (0 : Fin 3) = t.val / 4 ∧ win0_4.index t (1 : Fin 3) = t.val % 4 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Entry (p, q) of point t's block of `x` is `x` at batch row t / 4, time 1024·(t % 4) + p, channel q. -/
theorem blk0_apply (c : Dev nD) (t : Fin cfg0.N) (u : Fin 1) (p : Fin 1024) (q : Fin 2048) (b : Fin 8) (s : Fin 4096)
    (hb : b.val = t.val / 4) (hs : s.val = t.val % 4 * 1024 + p.val) :
    (iblk m c 0 t : Vec Ideal S1x1024x2048 .f32) (ix3 u p q) = m ((c : Thread nD τ).loc main_arg0) (ix3 b s q) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * u.val = b.val; have := u.isLt; omega
  | ⟨1, _⟩ => show win0_0.index t (1 : Fin 3) * 1024 + 1 * p.val = s.val; omega
  | ⟨2, _⟩ => show win0_0.index t (2 : Fin 3) * 2048 + 1 * q.val = q.val; omega

/-- The table the kernel is handed is the tap table transposed. -/
theorem V_taps (c : Dev nD) : (V m c main_v0 : S4x2048.Idx → EReal)
    = transpose S4x2048 [1, 0] (m ((c : Thread nD τ).loc main_arg1)) transposes_S2048x4_S4x2048_1_0 := by
  dsimp only [Gen.V, Gen.hostOps0]; after_results; try rfl

/-- The two rows it is handed are gamma and beta, each as one row. -/
theorem V_gamma (c : Dev nD) : (V m c main_v1 : S1x2048.Idx → EReal)
    = shapeCast S1x2048 (m ((c : Thread nD τ).loc main_arg2)) shapeCasts_S2048_S1x2048 := by
  dsimp only [Gen.V, Gen.hostOps0]; after_results; try rfl

theorem V_beta (c : Dev nD) : (V m c main_v2 : S1x2048.Idx → EReal)
    = shapeCast S1x2048 (m ((c : Thread nD τ).loc main_arg3)) shapeCasts_S2048_S1x2048 := by
  dsimp only [Gen.V, Gen.hostOps0]; after_results; try rfl

/-- Entry (j, q) of the table block is tap j of channel q. -/
theorem blk1_apply (c : Dev nD) (t : Fin cfg0.N) (j : Fin 4) (q : Fin 2048) :
    (iblk m c 1 t : Vec Ideal S4x2048 .f32) (ix2 j q) = m ((c : Thread nD τ).loc main_arg1) (ix2 q j) := by
  obtain ⟨-, -, -, -, -, -, e0, e1, -⟩ := idx_facts t
  unfold iblk
  rw [View.read_apply]
  show V m c main_v0 _ = _
  have he : ((cfg0.win 1).blk t).view.emb (ix2 j q) = ix2 j q := funext fun a => Fin.ext (by
    match a with
    | ⟨0, _⟩ => show win0_1.index t (0 : Fin 2) * 4 + 1 * j.val = j.val; omega
    | ⟨1, _⟩ => show win0_1.index t (1 : Fin 2) * 2048 + 1 * q.val = q.val; omega)
  rw [he, V_taps]
  exact transpose_ix2_apply _ _ j q

/-- Entry (0, q) of the gamma block is gamma at channel q. -/
theorem blk2_apply (c : Dev nD) (t : Fin cfg0.N) (u : Fin 1) (q : Fin 2048) :
    (iblk m c 2 t : Vec Ideal S1x2048 .f32) (ix2 u q) = m ((c : Thread nD τ).loc main_arg2) (ix1 q) := by
  obtain ⟨-, -, -, -, -, -, -, -, e0, e1, -⟩ := idx_facts t
  unfold iblk
  rw [View.read_apply]
  show V m c main_v1 _ = _
  have he : ((cfg0.win 2).blk t).view.emb (ix2 u q) = ix2 u q := funext fun a => Fin.ext (by
    match a with
    | ⟨0, _⟩ => show win0_2.index t (0 : Fin 2) * 1 + 1 * u.val = u.val; omega
    | ⟨1, _⟩ => show win0_2.index t (1 : Fin 2) * 2048 + 1 * q.val = q.val; omega)
  rw [he, V_gamma]
  exact shapeCast_a_1a_apply _ _ u q

/-- Entry (0, q) of the beta block is beta at channel q. -/
theorem blk3_apply (c : Dev nD) (t : Fin cfg0.N) (u : Fin 1) (q : Fin 2048) :
    (iblk m c 3 t : Vec Ideal S1x2048 .f32) (ix2 u q) = m ((c : Thread nD τ).loc main_arg3) (ix1 q) := by
  obtain ⟨-, -, -, -, -, -, -, -, -, -, e0, e1⟩ := idx_facts t
  unfold iblk
  rw [View.read_apply]
  show V m c main_v2 _ = _
  have he : ((cfg0.win 3).blk t).view.emb (ix2 u q) = ix2 u q := funext fun a => Fin.ext (by
    match a with
    | ⟨0, _⟩ => show win0_3.index t (0 : Fin 2) * 1 + 1 * u.val = u.val; omega
    | ⟨1, _⟩ => show win0_3.index t (1 : Fin 2) * 2048 + 1 * q.val = q.val; omega)
  rw [he, V_beta]
  exact shapeCast_a_1a_apply _ _ u q

end Cert.KernelIdeal.Windows

end
-- ==== Proof.Spec.lean ====
/-
  The function both programs compute, index by index, over the extended reals.

  For a batch row `b`, a time step `s` and a channel `d`, the normalised entry is
      xn(b, s, d) = (x(b,s,d) − μ) · (var + ε)^(−1/2) · γ(d) + β(d),
  with μ and var the mean and the variance of the 2048 channels of row (b, s). The output at time `t` is the causal
  four-tap filter along time, per channel,
      y(b, t, d) = ((((0 + w(d,0)·h(t)) + w(d,1)·h(t+1)) + w(d,2)·h(t+2)) + w(d,3)·h(t+3)),
  where h(n) is xn(b, n − 3, d) for n ≥ 3 and zero for the three positions before the sequence starts, followed by
  y · 1/(1 + e^(−y)).

  The variance is written in two ways: as the mean of the squared deviations, and as the mean of the squares less the
  squared mean. Over the reals they agree; the second module of this directory proves it for rows of finite entries.
-/
import Idealize.ShloMosaic.PureOps.Ideal
import Idealize.ShloMosaic.PureOps.Ideal.Laws
import Idealize.ShloMosaic.Lib.ValueIdx

noncomputable section

namespace Cert.ShortConv

open Idealize.ShloMosaic Idealize.ShloMosaic.ValueIdx
open scoped BigOperators

/-- The batch of sequences, the filter taps (channel-major), and a per-channel vector. -/
abbrev Seqs := (⟨3, ![8, 4096, 2048]⟩ : Shape).Idx → EReal
abbrev Taps := (⟨2, ![2048, 4]⟩ : Shape).Idx → EReal
abbrev Chan := (⟨1, ![2048]⟩ : Shape).Idx → EReal

/-- The float literals of the two programs, as extended reals. -/
abbrev zero32 : EReal := Ideal.ofBits .f32 0x00000000#32
abbrev eps32 : EReal := Ideal.ofBits .f32 0x3727C5AC#32
abbrev n2048 : EReal := Ideal.ofBits .f32 0x45000000#32
abbrev inv2048 : EReal := Ideal.ofBits .f32 0x3A000000#32

/-! ## One row's statistics, in the two spellings -/

/-- The mean of a row as a quotient by 2048. -/
def meanQ (r : Fin 2048 → EReal) : EReal := Ideal.div (∑ k, r k) n2048
/-- The variance of a row as the mean of the squared deviations from `meanQ`. -/
def varQ (r : Fin 2048 → EReal) : EReal := Ideal.div (∑ k, (r k - meanQ r) * (r k - meanQ r)) n2048
/-- The mean of a row as a product with 1/2048. -/
def meanP (r : Fin 2048 → EReal) : EReal := (∑ k, r k) * inv2048
/-- The variance of a row as the mean of the squares less the squared mean. -/
def varP (r : Fin 2048 → EReal) : EReal := (∑ k, r k * r k) * inv2048 - meanP r * meanP r

/-- An entry `v` of a row normalised by the row's statistics `μ`, `σ²`, scaled by `g` and shifted by `b`. -/
def affine (μ σ2 g b v : EReal) : EReal := (v - μ) * Ideal.rsqrt (σ2 + eps32) * g + b

/-! ## The normalised sequence and its causal filter -/

/-- Row (b, s) of the batch. -/
abbrev row (x : Seqs) (b : Fin 8) (s : Fin 4096) : Fin 2048 → EReal := fun k => x (ix3 b s k)

/-- The normalised entry at (b, s, d), statistics in the quotient spelling. -/
def xn (x : Seqs) (γ β : Chan) (b : Fin 8) (s : Fin 4096) (d : Fin 2048) : EReal :=
  affine (meanQ (row x b s)) (varQ (row x b s)) (γ (ix1 d)) (β (ix1 d)) (x (ix3 b s d))

/-- The same with the statistics in the product spelling. -/
def xnP (x : Seqs) (γ β : Chan) (b : Fin 8) (s : Fin 4096) (d : Fin 2048) : EReal :=
  affine (meanP (row x b s)) (varP (row x b s)) (γ (ix1 d)) (β (ix1 d)) (x (ix3 b s d))

/-- The history the filter reads at padded position `n`: zero for the three positions before the sequence, then the
    normalised entry at time `n − 3`. -/
def hist (x : Seqs) (γ β : Chan) (b : Fin 8) (d : Fin 2048) (n : ℕ) : EReal :=
  if h : 3 ≤ n ∧ n - 3 < 4096 then xn x γ β b ⟨n - 3, h.2⟩ d else 0

/-- Four taps, accumulated first to last from the zero word. -/
def taps4 (w0 w1 w2 w3 h0 h1 h2 h3 : EReal) : EReal := (((zero32 + w0 * h0) + w1 * h1) + w2 * h2) + w3 * h3

/-- The filter's output at (b, t, d). -/
def conv (x : Seqs) (w : Taps) (γ β : Chan) (b : Fin 8) (t : Fin 4096) (d : Fin 2048) : EReal :=
  taps4 (w (ix2 d 0)) (w (ix2 d 1)) (w (ix2 d 2)) (w (ix2 d 3))
    (hist x γ β b d t.val) (hist x γ β b d (t.val + 1)) (hist x γ β b d (t.val + 2)) (hist x γ β b d (t.val + 3))

/-- y · 1/(1 + e^(−y)). -/
def silu (y : EReal) : EReal := y * Ideal.logistic y

/-- THE RESULT: the whole output array as one function of the four argument arrays. -/
def result (x : Seqs) (w : Taps) (γ β : Chan) : Seqs :=
  fun i => silu (conv x w γ β (i 0) (i 1) (i 2))

theorem result_apply (x : Seqs) (w : Taps) (γ β : Chan) (b : Fin 8) (t : Fin 4096) (d : Fin 2048) :
    result x w γ β (ix3 b t d) = silu (conv x w γ β b t d) := rfl

end Cert.ShortConv

end
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.KValue.lean ====
/-
  The kernel body's arithmetic, read entry by entry over the extended reals.

  One grid point handles one block of 1024 consecutive time steps of one batch row. Its body normalises the block's rows
  (`rows_apply`), forms the causal four-tap sum of every row with the three rows before it, and multiplies by the logistic.
  The three rows before the block's first row are not in the block: they are three rows the body is handed beside the
  block (`ext`: extended row n is handed row n for n < 3 and block row n − 3 from there on). The body computes
  the first eight output rows from the handed rows and the block's head, the other 1016 from cyclic shifts of the block by
  three, two and one rows — a shift by s reads row p − s at row p ≥ s, so from row 8 on no wrapped row is read — and
  both are the same four taps of the extended rows (`head_apply`, `rest_apply`, `block_apply`).
-/
import proofs.«102148_j23570780520523_2_alg».proof.Proof.Gen.KernelIdeal.Skeleton
import proofs.«102148_j23570780520523_2_alg».proof.Proof.Spec
import proofs.«102148_j23570780520523_2_alg».proof.Proof.LibRowStat
import proofs.«102148_j23570780520523_2_alg».proof.Proof.LibKeepdims
import proofs.«102148_j23570780520523_2_alg».proof.Proof.KPieces
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.KernelIdeal.Payload

open Cert.KernelIdeal Cert.KernelIdeal.Gen Cert.ShortConv
open Idealize.ShloMosaic Idealize.ShloMosaic.ValueIdx
open scoped BigOperators

/-! ## The normalised rows of a block -/

/-- The sum over the 2048 lanes of row `p` of a block, with the accumulator's side condition as the body spells it
    (the zero word is the zero word). -/
theorem row_sum (src : FVec Ideal S1024x2048 .f32) (h : S1024x2048.Reduces [1] S1024) (hφ : FKind.Formats .f32)
    (hacc : (0x00000000#32 : BitVec 32) = 0x00000000#32) (p : Fin 1024) :
    multiReduction .add [1] S1024 src 0x00000000#32 h hφ hacc (ix1 p) = ∑ k : Fin 2048, src (ix2 p k) :=
  Cert.LibRowStat.sum_lanes_apply src 0x00000000#32 h hφ hacc p

/-- Row `p` of the block, normalised with the product spelling of its statistics. -/
theorem rows_apply (x0 : Vec Ideal S1x1024x2048 .f32) (x2 x3 : Vec Ideal S1x2048 .f32) (p : Fin 1024) (q : Fin 2048) :
    k0_pay4 (F := Ideal) x0 x2 x3 (ix2 p q)
      = affine (meanP fun k => x0 (ix3 (0 : Fin 1) p k)) (varP fun k => x0 (ix3 (0 : Fin 1) p k))
          (x2 (ix2 (0 : Fin 1) q)) (x3 (ix2 (0 : Fin 1) q)) (x0 (ix3 (0 : Fin 1) p q)) := by
  simp only [k0_pay4, addf_apply, mulf_apply, subf_apply, rsqrt, broadcast_apply, shapeCast_self,
    broadcastTo_1b_ab_apply, Cert.LibRowStat.broadcastTo_a1_ab_apply, Cert.LibKeepdims.shapeCast_a_a1_apply,
    shapeCast_1ab_ab_apply, Scalar.ofBits, Ideal.ofBits_def, Ideal.rsqrt_def]
  rw [row_sum, row_sum]
  simp only [mulf_apply, shapeCast_1ab_ab_apply]
  rfl

/-! ## The pieces of the four-tap sum -/

/-- Tap `j`'s weight: row `j` of the 4 × 2048 table, flattened, restored to one row and repeated down `a` rows, reads
    at (p, q) the table at (j, q). -/
theorem weight_apply {a : ℕ} (o : ℕ) (tbl : FVec Ideal S4x2048 .f32) (hs : S4x2048.Slices ![o, 0] S1x2048)
    (h1 : S1x2048.ShapeCasts S2048) (h2 : S2048.ShapeCasts S1x2048) (hb : S1x2048.Broadcasts ⟨2, ![a, 2048]⟩)
    (p : Fin a) (q : Fin 2048) (j : Fin 4) (hj : j.val = o) :
    broadcastTo ⟨2, ![a, 2048]⟩ (shapeCast S1x2048 (shapeCast S2048 (extractStridedSlice S1x2048 ![o, 0] tbl hs) h1) h2) hb (ix2 p q)
      = tbl (ix2 j q) := by
  rw [broadcastTo_1b_ab_apply, shapeCast_a_1a_apply, shapeCast_1a_a_apply]
  exact slice2_axis0_apply o tbl hs (0 : Fin 1) q j (by rw [hj]; rfl)

/-- A cyclic shift of the block's rows by `s` reads, at a row `p` with `s ≤ p`, row `p − s`. -/
theorem shift_apply (sb : BitVec 32) (s : ℕ) (hsb : sb.toNat = s) (v : FVec Ideal S1024x2048 .f32)
    (h : S1024x2048.Rotates 0 none) (p p' : Fin 1024) (q : Fin 2048) (hp : p'.val + s = p.val) :
    dynamicRotate 0 sb none v h (ix2 p q) = v (ix2 p' q) := by
  refine dynamicRotate_apply 0 sb v h (ix2 p q) (ix2 p' q) fun b => ?_
  match b with
  | ⟨0, _⟩ =>
    show p'.val = if (0 : Fin 2) = 0 then (p.val + 1024 - sb.toNat % 1024) % 1024 else p.val
    rw [if_pos rfl, hsb]
    have := p.isLt; have := p'.isLt
    omega
  | ⟨1, _⟩ =>
    show q.val = if (1 : Fin 2) = 0 then _ else q.val
    rw [if_neg (by decide)]

/-- Two arrays joined along their rows read, at a row of the first, the first. -/
theorem rows_joined_left {α : Type} {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (p : Fin c) (q : Fin n) (p' : Fin a)
    (hp : p'.val = p.val) :
    concatenate ⟨2, ![c, n]⟩ 0 [⟨⟨2, ![a, n]⟩, x₁⟩, ⟨⟨2, ![b, n]⟩, x₂⟩] h (ix2 p q) = x₁ (ix2 p' q) :=
  concatenate_pair_apply_left 0 x₁ x₂ h (ix2 p q) rfl (ix2 p' q) fun ax => by
    match ax with
    | ⟨0, _⟩ => exact hp
    | ⟨1, _⟩ => rfl

/-- … and at a row past the first array's `a` rows, the second at that row less `a`. -/
theorem rows_joined_right {α : Type} {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (p : Fin c) (q : Fin n) (p' : Fin b)
    (hp : p'.val + a = p.val) :
    concatenate ⟨2, ![c, n]⟩ 0 [⟨⟨2, ![a, n]⟩, x₁⟩, ⟨⟨2, ![b, n]⟩, x₂⟩] h (ix2 p q) = x₂ (ix2 p' q) :=
  concatenate_pair_apply_right 0 x₁ x₂ h (ix2 p q) rfl rfl (ix2 p' q)
    (fun ax hne => by
      match ax, hne with
      | ⟨0, _⟩, hne => exact absurd rfl hne
      | ⟨1, _⟩, _ => rfl)
    hp

/-! ## The extended rows -/

/-- Extended row `n` at lane `q`: handed row `n` for `n < 3`, block row `n − 3` from there on (zero past the block). -/
def ext (XN : FVec Ideal S1024x2048 .f32) (tail : Vec Ideal S3x2048 .f32) (q : Fin 2048) (n : ℕ) : EReal :=
  if h : n < 3 then tail (ix2 ⟨n, h⟩ q) else if h' : n - 3 < 1024 then XN (ix2 ⟨n - 3, h'⟩ q) else 0

/-- From extended row 3 on, the extended rows are the block's. -/
theorem ext_block (XN : FVec Ideal S1024x2048 .f32) (tail : Vec Ideal S3x2048 .f32) (q : Fin 2048) (n : ℕ) (k : Fin 1024)
    (hk : k.val + 3 = n) : ext XN tail q n = XN (ix2 k q) := by
  unfold ext
  have h3 : ¬ n < 3 := by omega
  have h' : n - 3 < 1024 := by have := k.isLt; omega
  rw [dif_neg h3, dif_pos h']
  exact congrArg (fun r => XN (ix2 r q)) (Fin.ext (by show n - 3 = k.val; omega))

/-- The eleven rows [handed rows ; first eight block rows] are extended rows 0 to 10. -/
theorem joined_apply (XN : FVec Ideal S1024x2048 .f32) (tail : Vec Ideal S3x2048 .f32)
    (hs : S1024x2048.Slices ![0, 0] S8x2048) (hc : Shape.Concatenates [S3x2048, S8x2048] S11x2048 0)
    (n : Fin 11) (q : Fin 2048) :
    concatenate S11x2048 0 [⟨S3x2048, tail⟩, ⟨S8x2048, extractStridedSlice S8x2048 ![0, 0] XN hs⟩] hc (ix2 n q)
      = ext XN tail q n.val := by
  by_cases h : n.val < 3
  · rw [rows_joined_left tail _ hc n q ⟨n.val, h⟩ rfl]
    unfold ext
    rw [dif_pos h]
  · have h8 : n.val - 3 < 8 := by have := n.isLt; omega
    rw [rows_joined_right tail _ hc n q ⟨n.val - 3, h8⟩ (by show n.val - 3 + 3 = n.val; omega),
      slice2_axis0_apply 0 XN hs ⟨n.val - 3, h8⟩ q ⟨n.val - 3, by omega⟩ (by show n.val - 3 = 0 + (n.val - 3); omega)]
    exact (ext_block XN tail q n.val ⟨n.val - 3, by omega⟩ (by show n.val - 3 + 3 = n.val; omega)).symm

/-- Rows `j` to `j + 7` of those eleven: at row `p`, extended row `p + j`. -/
theorem window_apply (XN : FVec Ideal S1024x2048 .f32) (tail : Vec Ideal S3x2048 .f32)
    (hs : S1024x2048.Slices ![0, 0] S8x2048) (hc : Shape.Concatenates [S3x2048, S8x2048] S11x2048 0)
    (j : ℕ) (hj : j < 4) (hw : S11x2048.Slices ![j, 0] S8x2048) (p : Fin 8) (q : Fin 2048) :
    extractStridedSlice S8x2048 ![j, 0]
        (concatenate S11x2048 0 [⟨S3x2048, tail⟩, ⟨S8x2048, extractStridedSlice S8x2048 ![0, 0] XN hs⟩] hc) hw (ix2 p q)
      = ext XN tail q (p.val + j) := by
  have hlt : p.val + j < 11 := by have := p.isLt; omega
  rw [slice2_axis0_apply j _ hw p q ⟨p.val + j, hlt⟩ (Nat.add_comm _ _)]
  exact joined_apply XN tail hs hc ⟨p.val + j, hlt⟩ q

/-! ## The payloads at an index -/

/-- The tap table passes through its cast to its own shape unchanged. -/
theorem taps_eq (x1 : Vec Ideal S4x2048 .f32) : k0_pay5 (F := Ideal) x1 = x1 := shapeCast_self _ _

/-- The zeros stored at the first time block of a batch row are zero. -/
theorem zeros_apply (j : S8x2048.Idx) : k0_pay3 (F := Ideal) j = 0 := by
  unfold k0_pay3
  rw [shapeCast_self]
  exact Ideal.ofBits_zero_f32

/-- The rows handed to the next block are rows 5, 6, 7 of the carried buffer. -/
theorem lastRows_apply (car : Vec Ideal S8x2048 .f32) (n : Fin 3) (q : Fin 2048) :
    Cert.KernelIdeal.Pieces.lastRows car (ix2 n q) = car (ix2 ⟨5 + n.val, by omega⟩ q) := by
  unfold Cert.KernelIdeal.Pieces.lastRows
  show car ((Rect.unit (s := S8x2048) ![5, 0] ![3, 2048] inb_S8x2048_S3x2048_5_0).idx (ix2 n q)) = _
  refine congrArg car (funext fun a => Fin.ext ?_)
  match a with
  | ⟨0, _⟩ =>
    show 5 + 1 * n.val = 5 + n.val
    omega
  | ⟨1, _⟩ =>
    show 0 + 1 * q.val = q.val
    omega

/-- The carried buffer ends as the block's last eight normalised rows. -/
theorem carry_apply (x0 : Vec Ideal S1x1024x2048 .f32) (x2 x3 : Vec Ideal S1x2048 .f32) (p : Fin 8) (q : Fin 2048) :
    Cert.KernelIdeal.Pieces.carryOf (F := Ideal) x0 x2 x3 (ix2 p q)
      = k0_pay4 (F := Ideal) x0 x2 x3 (ix2 ⟨1016 + p.val, by omega⟩ q) := by
  unfold Cert.KernelIdeal.Pieces.carryOf k0_pay2
  rw [shapeCast_self]
  exact slice2_axis0_apply 1016 _ _ p q ⟨1016 + p.val, by omega⟩ rfl

/-- The gate: a value times its logistic. -/
theorem gate_apply (v : FVec Ideal S1024x2048 .f32) (i : S1024x2048.Idx) : mulf v (logistic v) i = silu (v i) := rfl

/-- The first eight output rows before the gate, over any block rows `XN` and tap table `W`: the four taps of the
    extended rows. -/
theorem head_core (XN : FVec Ideal S1024x2048 .f32) (W : FVec Ideal S4x2048 .f32) (tail : Vec Ideal S3x2048 .f32)
    (p : Fin 8) (q : Fin 2048) :
    k0_pay9 (F := Ideal) XN W tail (ix2 p q)
      = taps4 (W (ix2 0 q)) (W (ix2 1 q)) (W (ix2 2 q)) (W (ix2 3 q))
          (ext XN tail q p.val) (ext XN tail q (p.val + 1)) (ext XN tail q (p.val + 2)) (ext XN tail q (p.val + 3)) := by
  unfold k0_pay9 taps4
  simp only [addf_apply, mulf_apply, broadcast_apply]
  rw [weight_apply 0 W _ _ _ _ p q 0 rfl, weight_apply 1 W _ _ _ _ p q 1 rfl, weight_apply 2 W _ _ _ _ p q 2 rfl,
    weight_apply 3 W _ _ _ _ p q 3 rfl,
    window_apply XN tail _ _ 0 (by omega) _ p q, window_apply XN tail _ _ 1 (by omega) _ p q,
    window_apply XN tail _ _ 2 (by omega) _ p q, window_apply XN tail _ _ 3 (by omega) _ p q]
  rfl

/-- The first eight output rows before the gate, the tap table as the body passes it. -/
theorem head_apply (XN : FVec Ideal S1024x2048 .f32) (x1 : Vec Ideal S4x2048 .f32) (tail : Vec Ideal S3x2048 .f32)
    (p : Fin 8) (q : Fin 2048) :
    k0_pay9 (F := Ideal) XN (k0_pay5 x1) tail (ix2 p q)
      = taps4 (x1 (ix2 0 q)) (x1 (ix2 1 q)) (x1 (ix2 2 q)) (x1 (ix2 3 q))
          (ext XN tail q p.val) (ext XN tail q (p.val + 1)) (ext XN tail q (p.val + 2)) (ext XN tail q (p.val + 3)) := by
  rw [taps_eq]
  exact head_core XN x1 tail p q

/-- The other 1016 output rows before the gate, over any block rows `XN` and tap table `W`: row `p' + 8` of the sum of
    the four weighted shifts. From row 8 on a shift by at most three rows reads no wrapped row. -/
theorem rest_core (XN : FVec Ideal S1024x2048 .f32) (W : FVec Ideal S4x2048 .f32) (hr : S1024x2048.Rotates 0 none)
    (hs : S4x2048.Slices ![0, 0] S1x2048) (h1 : S1x2048.ShapeCasts S2048) (h2 : S2048.ShapeCasts S1x2048)
    (hb : S1x2048.Broadcasts S1024x2048) (p' : Fin 1016) (q : Fin 2048) :
    k0_pay10 (F := Ideal) XN W k0_pay6 (dynamicRotate 0 3#32 none XN hr)
        (broadcastTo S1024x2048 (shapeCast S1x2048 (shapeCast S2048 (extractStridedSlice S1x2048 ![0, 0] W hs) h1) h2) hb)
        (ix2 p' q)
      = taps4 (W (ix2 0 q)) (W (ix2 1 q)) (W (ix2 2 q)) (W (ix2 3 q))
          (XN (ix2 ⟨p'.val + 5, by omega⟩ q)) (XN (ix2 ⟨p'.val + 6, by omega⟩ q))
          (XN (ix2 ⟨p'.val + 7, by omega⟩ q)) (XN (ix2 ⟨p'.val + 8, by omega⟩ q)) := by
  have h8 : p'.val + 8 < 1024 := by omega
  unfold k0_pay10 k0_pay6 taps4
  rw [slice2_axis0_apply 8 _ _ p' q ⟨p'.val + 8, h8⟩ (Nat.add_comm _ _)]
  simp only [addf_apply, mulf_apply, broadcast_apply]
  rw [weight_apply 0 W _ _ _ _ _ q 0 rfl, weight_apply 1 W _ _ _ _ _ q 1 rfl, weight_apply 2 W _ _ _ _ _ q 2 rfl,
    weight_apply 3 W _ _ _ _ _ q 3 rfl,
    shift_apply 3#32 3 rfl XN _ ⟨p'.val + 8, h8⟩ ⟨p'.val + 5, by omega⟩ q rfl,
    shift_apply 2#32 2 rfl XN _ ⟨p'.val + 8, h8⟩ ⟨p'.val + 6, by omega⟩ q rfl,
    shift_apply 1#32 1 rfl XN _ ⟨p'.val + 8, h8⟩ ⟨p'.val + 7, by omega⟩ q rfl]
  rfl

/-- The other 1016 output rows before the gate, for the block's normalised rows and the tap table as the body passes
    them. -/
theorem rest_apply (x0 : Vec Ideal S1x1024x2048 .f32) (x1 : Vec Ideal S4x2048 .f32) (x2 x3 : Vec Ideal S1x2048 .f32)
    (p' : Fin 1016) (q : Fin 2048) :
    k0_pay10 (F := Ideal) (k0_pay4 x0 x2 x3) (k0_pay5 x1) k0_pay6 (k0_pay7 x0 x2 x3) (k0_pay8 x1) (ix2 p' q)
      = taps4 (x1 (ix2 0 q)) (x1 (ix2 1 q)) (x1 (ix2 2 q)) (x1 (ix2 3 q))
          (k0_pay4 (F := Ideal) x0 x2 x3 (ix2 ⟨p'.val + 5, by omega⟩ q))
          (k0_pay4 (F := Ideal) x0 x2 x3 (ix2 ⟨p'.val + 6, by omega⟩ q))
          (k0_pay4 (F := Ideal) x0 x2 x3 (ix2 ⟨p'.val + 7, by omega⟩ q))
          (k0_pay4 (F := Ideal) x0 x2 x3 (ix2 ⟨p'.val + 8, by omega⟩ q)) := by
  unfold k0_pay7 k0_pay8
  rw [taps_eq]
  exact rest_core (k0_pay4 x0 x2 x3) x1 _ _ _ _ _ p' q

/-- THE OUTPUT BLOCK at (p, q): the gate of the four taps of extended rows p, p + 1, p + 2, p + 3. -/
theorem block_apply (x0 : Vec Ideal S1x1024x2048 .f32) (x1 : Vec Ideal S4x2048 .f32) (x2 x3 : Vec Ideal S1x2048 .f32)
    (tail : Vec Ideal S3x2048 .f32) (u : Fin 1) (p : Fin 1024) (q : Fin 2048) :
    Cert.KernelIdeal.Pieces.blockOf (F := Ideal) x0 x1 x2 x3 tail (ix3 u p q)
      = silu (taps4 (x1 (ix2 0 q)) (x1 (ix2 1 q)) (x1 (ix2 2 q)) (x1 (ix2 3 q))
          (ext (k0_pay4 x0 x2 x3) tail q p.val) (ext (k0_pay4 x0 x2 x3) tail q (p.val + 1))
          (ext (k0_pay4 x0 x2 x3) tail q (p.val + 2)) (ext (k0_pay4 x0 x2 x3) tail q (p.val + 3))) := by
  unfold Cert.KernelIdeal.Pieces.blockOf k0_pay1
  rw [shapeCast_ab_1ab_apply]
  refine (gate_apply _ _).trans (congrArg silu ?_)
  by_cases h : p.val < 8
  · rw [rows_joined_left _ _ _ p q ⟨p.val, h⟩ rfl]
    exact head_apply (k0_pay4 x0 x2 x3) x1 tail ⟨p.val, h⟩ q
  · have h16 : p.val - 8 < 1016 := by have := p.isLt; omega
    have hp := p.isLt
    rw [rows_joined_right _ _ _ p q ⟨p.val - 8, h16⟩ (by show p.val - 8 + 8 = p.val; omega),
      rest_apply x0 x1 x2 x3 ⟨p.val - 8, h16⟩ q,
      ext_block _ tail q p.val ⟨p.val - 8 + 5, by omega⟩ (by show p.val - 8 + 5 + 3 = p.val; omega),
      ext_block _ tail q (p.val + 1) ⟨p.val - 8 + 6, by omega⟩ (by show p.val - 8 + 6 + 3 = p.val + 1; omega),
      ext_block _ tail q (p.val + 2) ⟨p.val - 8 + 7, by omega⟩ (by show p.val - 8 + 7 + 3 = p.val + 2; omega),
      ext_block _ tail q (p.val + 3) ⟨p.val - 8 + 8, by omega⟩ (by show p.val - 8 + 8 + 3 = p.val + 3; omega)]

end Cert.KernelIdeal.Payload

end
-- ==== Proof.Stats.lean ====
/-
  The two spellings of a row's statistics agree.

  The literals: the word 0x45000000 has exponent field 138 and a zero fraction, so it denotes 2^(138-127) = 2048; the
  word 0x3A000000 has exponent field 116 and a zero fraction, so it denotes 2^(116-127) = 1/2048.

  The mean: a quotient by the nonzero real 2048 is the product with 1/2048 for EVERY extended real numerator, the
  infinities included, so the two means agree for every row.

  The variance: with S = ∑ v_k, Q = ∑ v_k², N the number of entries and c = 1/N, μ = S·c,
      ∑ (v_k − μ)² = Q − 2μS + Nμ²,   hence   c · ∑ (v_k − μ)² = Qc − 2μ² + (Nc)μ² = Qc − μ².
  Expanding the square uses distributivity, which fails at the infinities, so this half is stated for rows whose
  entries are reals: the real identity is proved over an abstract finite index, and the coercion ℝ → EReal is pushed
  out of the products, differences and sums on both sides.
-/
import proofs.«102148_j23570780520523_2_alg».proof.Proof.Spec

noncomputable section

namespace Cert.ShortConv

open Idealize.ShloMosaic Idealize.ShloMosaic.ValueIdx
open scoped BigOperators

/-! ## The two literals -/

/-- The word 0x45000000 denotes 2048. -/
theorem n2048_eq : n2048 = ((2048 : ℝ) : EReal) := by
  simp [Ideal.ofBits, Ideal.ieee, -EReal.coe_mul]; norm_num

/-- The word 0x3A000000 denotes 1/2048. -/
theorem inv2048_eq : inv2048 = ((1 / 2048 : ℝ) : EReal) := by
  simp [Ideal.ofBits, Ideal.ieee, -EReal.coe_mul]; norm_num

/-! ## The mean, for every row -/

/-- A sum divided by 2048 is the sum times 1/2048, whatever the entries. -/
theorem meanP_eq_meanQ (r : Fin 2048 → EReal) : meanP r = meanQ r := by
  unfold meanP meanQ
  rw [n2048_eq, inv2048_eq, Ideal.div_coe (by norm_num : (2048 : ℝ) ≠ 0)]

/-! ## The variance, for rows of reals -/

/-- The coercion of a finite real sum is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over the reals, with c the reciprocal of the number of entries: the mean of the squared deviations from the mean
    is the mean of the squares less the squared mean. -/
theorem sum_sq_dev {ι : Type*} [Fintype ι] (v : ι → ℝ) (c : ℝ) (hc : (Fintype.card ι : ℝ) * c = 1) :
    (∑ k, (v k - (∑ j, v j) * c) * (v k - (∑ j, v j) * c)) * c
      = (∑ k, v k * v k) * c - ((∑ j, v j) * c) * ((∑ j, v j) * c) := by
  generalize hS : (∑ j, v j) = S
  have h1 : ∀ k, (v k - S * c) * (v k - S * c) = v k * v k - (2 * (S * c)) * v k + (S * c) * (S * c) :=
    fun k => by ring
  simp only [h1]
  rw [Finset.sum_add_distrib, Finset.sum_sub_distrib, ← Finset.mul_sum, Finset.sum_const, Finset.card_univ,
    nsmul_eq_mul, hS]
  linear_combination (S * c * (S * c)) * hc

/-- The mean of a row of reals is a real. -/
theorem meanQ_coe (v : Fin 2048 → ℝ) :
    meanQ (fun k => (v k : EReal)) = (((∑ k, v k) * (1 / 2048) : ℝ) : EReal) := by
  rw [← meanP_eq_meanQ]
  unfold meanP
  rw [inv2048_eq, ← coe_sum, ← EReal.coe_mul]

/-- For a row of finite entries the two variances agree. -/
theorem varP_eq_varQ (r : Fin 2048 → EReal) (hr : ∀ k, ∃ v : ℝ, r k = (v : EReal)) : varP r = varQ r := by
  choose v hv using hr
  obtain rfl : r = fun k => (v k : EReal) := funext hv
  unfold varP varQ
  rw [meanP_eq_meanQ, meanQ_coe, n2048_eq, inv2048_eq, Ideal.div_coe (by norm_num : (2048 : ℝ) ≠ 0)]
  simp only [← EReal.coe_mul, ← EReal.coe_sub, ← coe_sum]
  exact congrArg _ (sum_sq_dev v (1 / 2048) (by rw [Fintype.card_fin]; norm_num)).symm

/-! ## The normalised entry -/

/-- Where row (b, s) is finite, the normalised entry is the same in both spellings. -/
theorem xnP_eq_xn (x : Seqs) (γ β : Chan) (b : Fin 8) (s : Fin 4096) (d : Fin 2048)
    (hx : ∀ k : Fin 2048, ∃ v : ℝ, x (ix3 b s k) = (v : EReal)) : xnP x γ β b s d = xn x γ β b s d := by
  unfold xnP xn
  rw [meanP_eq_meanQ, varP_eq_varQ (row x b s) hx]

end Cert.ShortConv

end
-- ==== Proof.KBlocks.lean ====
/-
  From blocks to the array: the kernel's result array is the result function of the four argument arrays.

  Point t of the 8 × 4 grid handles batch row b = t / 4 and time steps 1024·(t % 4) … 1024·(t % 4) + 1023. The filter's
  output at time s reads the normalised rows s − 3 … s, so the first three output rows of a block read rows of the block
  before; the kernel hands them over in an eight-row buffer it refills, at every point, with the block's last eight
  normalised rows (`carried`), and zeroes at a batch row's first block, where the rows before the sequence are the
  padding zeros (`tail_first`, `tail_next`). With that, extended row n of point t's block — handed row n for n < 3, block
  row n − 3 after — is the filter's history at padded position 1024·(t % 4) + n (`ext_eq_hist`), the body's output block
  is the block of the result function (`block_eq`, `flushed_eq`), the 32 blocks tile the array (`cover`), and the run
  ends with the array at that function (`final`, `run`).

  The normalised rows are computed with the variance as the mean of the squares less the squared mean; the result
  function has it as the mean of the squared deviations. `rows_eq` passes from one to the other, for real entries.
-/
import proofs.«102148_j23570780520523_2_alg».proof.Proof.Gen.KernelIdeal.Value
import proofs.«102148_j23570780520523_2_alg».proof.Proof.KPieces
import proofs.«102148_j23570780520523_2_alg».proof.Proof.KWindows
import proofs.«102148_j23570780520523_2_alg».proof.Proof.KValue
import proofs.«102148_j23570780520523_2_alg».proof.Proof.Stats
import proofs.«102148_j23570780520523_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.ShortConv
open Cert.KernelIdeal.Pieces Cert.KernelIdeal.Payload Cert.KernelIdeal.Windows

variable (m : (ℓ : Loc nD τ sig) → Buf (Elt Ideal) ℓ) (ρ : Dev nD → PrngReg)

/-- The four argument arrays on core `c`. -/
abbrev aX (c : Dev nD) : Seqs := m ((c : Thread nD τ).loc main_arg0)
abbrev aW (c : Dev nD) : Taps := m ((c : Thread nD τ).loc main_arg1)
abbrev aG (c : Dev nD) : Chan := m ((c : Thread nD τ).loc main_arg2)
abbrev aB (c : Dev nD) : Chan := m ((c : Thread nD τ).loc main_arg3)

/-- Every entry of `x` on core `c` is a real number. -/
def XReal (c : Dev nD) : Prop := ∀ i : S8x4096x2048.Idx, ∃ v : ℝ, aX m c i = (v : EReal)

theorem N32 : cfg0.N = 32 := N_0

/-- The normalised rows of point t's block are the normalised rows 1024·(t % 4) … of batch row t / 4 — in the
    quotient spelling, the rows' entries being real. -/
theorem rows_eq (c : Dev nD) (hx : XReal m c) (t : Fin cfg0.N) (p : Fin 1024) (q : Fin 2048) (b : Fin 8) (s : Fin 4096)
    (hb : b.val = t.val / 4) (hs : s.val = t.val % 4 * 1024 + p.val) :
    k0_pay4 (F := Ideal) (iblk m c 0 t) (iblk m c 2 t) (iblk m c 3 t) (ix2 p q) = xn (aX m c) (aG m c) (aB m c) b s q := by
  refine (rows_apply (iblk m c 0 t) (iblk m c 2 t) (iblk m c 3 t) p q).trans ?_
  have e0 := blk0_apply m c t (0 : Fin 1) p q b s hb hs
  have er : (fun k => (iblk m c 0 t : Vec Ideal S1x1024x2048 .f32) (ix3 (0 : Fin 1) p k)) = row (aX m c) b s :=
    funext fun k => blk0_apply m c t (0 : Fin 1) p k b s hb hs
  have e2 := blk2_apply m c t (0 : Fin 1) q
  have e3 := blk3_apply m c t (0 : Fin 1) q
  rw [e0, er, e2, e3]
  exact xnP_eq_xn (aX m c) (aG m c) (aB m c) b s q (fun k => hx _)

/-- After ANY point the carried buffer holds the last eight normalised rows of that point's block. -/
theorem carried (c : Dev nD) (t : Fin cfg0.N) :
    (outsAt0 m c t.val t.isLt).2 = carryOf (F := Ideal) (iblk m c 0 t) (iblk m c 2 t) (iblk m c 3 t) := by
  by_cases h0 : t.val % 4 = 0
  · rw [outsAt0_A m c t h0]
    dsimp only
    exact carry_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
  · rw [outsAt0_B m c t h0]
    dsimp only
    exact carry_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _

/-- Extended row n of point t's block is the filter's history at padded position 1024·(t % 4) + n, once the three handed
    rows are. -/
theorem ext_eq_hist (c : Dev nD) (hx : XReal m c) (t : Fin cfg0.N) (tail : Vec Ideal S3x2048 .f32) (b : Fin 8)
    (hb : b.val = t.val / 4) (q : Fin 2048)
    (htail : ∀ n : Fin 3, tail (ix2 n q) = hist (aX m c) (aG m c) (aB m c) b q (t.val % 4 * 1024 + n.val))
    (n N : ℕ) (hn : n < 1027) (hN : N = t.val % 4 * 1024 + n) :
    ext (k0_pay4 (F := Ideal) (iblk m c 0 t) (iblk m c 2 t) (iblk m c 3 t)) tail q n
      = hist (aX m c) (aG m c) (aB m c) b q N := by
  subst hN
  have hT : t.val < 32 := lt_of_lt_of_eq t.isLt (N32)
  unfold ext
  by_cases h3 : n < 3
  · rw [dif_pos h3]; exact htail ⟨n, h3⟩
  · have h' : n - 3 < 1024 := by omega
    rw [dif_neg h3, dif_pos h']
    have hs : t.val % 4 * 1024 + n - 3 < 4096 := by omega
    rw [rows_eq m c hx t ⟨n - 3, h'⟩ q b ⟨t.val % 4 * 1024 + n - 3, hs⟩ hb (by show t.val % 4 * 1024 + n - 3 = t.val % 4 * 1024 + (n - 3); omega)]
    unfold hist
    rw [dif_pos ⟨by omega, hs⟩]

/-- At the first point of a batch row the three handed rows are zero: the positions before the sequence. -/
theorem tail_first (c : Dev nD) (t : Fin cfg0.N) (h0 : t.val % 4 = 0) (b : Fin 8) (q : Fin 2048) (n : Fin 3) :
    lastRows (F := Ideal) (k0_pay3 (F := Ideal)) (ix2 n q) = hist (aX m c) (aG m c) (aB m c) b q (t.val % 4 * 1024 + n.val) := by
  rw [lastRows_apply, zeros_apply]
  unfold hist
  rw [dif_neg (by have := n.isLt; omega)]

/-- At any other point they are the last three normalised rows of the block before (point t', with t' + 1 = t). -/
theorem tail_next (c : Dev nD) (hx : XReal m c) (t t' : Fin cfg0.N) (ht' : t'.val = t.val - 1) (h0 : ¬t.val % 4 = 0) (b : Fin 8)
    (hb : b.val = t.val / 4) (q : Fin 2048) (n : Fin 3) :
    lastRows (F := Ideal) (outsAt0 m c t'.val t'.isLt).2 (ix2 n q)
      = hist (aX m c) (aG m c) (aB m c) b q (t.val % 4 * 1024 + n.val) := by
  have hT : t.val < 32 := lt_of_lt_of_eq t.isLt (N32)
  have hn := n.isLt
  have hs : t.val % 4 * 1024 + n.val - 3 < 4096 := by omega
  rw [lastRows_apply, carried, carry_apply]
  rw [rows_eq m c hx t' ⟨1016 + (5 + n.val), by omega⟩ q b ⟨t.val % 4 * 1024 + n.val - 3, hs⟩
    (by show b.val = t'.val / 4; omega) (by show t.val % 4 * 1024 + n.val - 3 = t'.val % 4 * 1024 + (1016 + (5 + n.val)); omega)]
  unfold hist
  rw [dif_pos ⟨by omega, hs⟩]

/-- Two functions of a block's entries that agree at every (row, channel) are equal. -/
theorem blk_ext (f g : S1x1024x2048.Idx → EReal)
    (h : ∀ (u : Fin 1) (p : Fin 1024) (q : Fin 2048), f (ix3 u p q) = g (ix3 u p q)) : f = g :=
  funext fun j => by rw [eq_ix3 j]; exact h _ _ _

/-- The body's output block, over handed rows that are the history, is the block of the result array. -/
theorem block_eq (c : Dev nD) (hx : XReal m c) (t : Fin cfg0.N) (tail : Vec Ideal S3x2048 .f32) (b : Fin 8) (hb : b.val = t.val / 4)
    (htail : ∀ (q : Fin 2048) (n : Fin 3), tail (ix2 n q) = hist (aX m c) (aG m c) (aB m c) b q (t.val % 4 * 1024 + n.val)) :
    (cfg0.win 4).cut (grid0.coords t) (blockOf (F := Ideal) (iblk m c 0 t) (iblk m c 1 t) (iblk m c 2 t) (iblk m c 3 t) tail)
      = ((cfg0.win 4).blk t).view.read (Elt Ideal) (result (aX m c) (aW m c) (aG m c) (aB m c)) := by
  have hT : t.val < 32 := lt_of_lt_of_eq t.isLt (N32)
  obtain ⟨-, -, -, e0, e1, e2, -⟩ := idx_facts t
  refine blk_ext _ _ fun u p q => ?_
  have hs : t.val % 4 * 1024 + p.val < 4096 := by have := p.isLt; omega
  have he : ((cfg0.win 4).blk t).view.emb (ix3 u p q) = ix3 b ⟨t.val % 4 * 1024 + p.val, hs⟩ q := funext fun a => Fin.ext (by
    match a with
    | ⟨0, _⟩ => show win0_4.index t (0 : Fin 3) * 1 + 1 * u.val = b.val; have := u.isLt; omega
    | ⟨1, _⟩ => show win0_4.index t (1 : Fin 3) * 1024 + 1 * p.val = t.val % 4 * 1024 + p.val; omega
    | ⟨2, _⟩ => show win0_4.index t (2 : Fin 3) * 2048 + 1 * q.val = q.val; omega)
  show blockOf (F := Ideal) (iblk m c 0 t) (iblk m c 1 t) (iblk m c 2 t) (iblk m c 3 t) tail (ix3 u p q) = result (aX m c) (aW m c) (aG m c) (aB m c) (((cfg0.win 4).blk t).view.emb (ix3 u p q))
  rw [he, result_apply, block_apply]
  unfold conv
  have hp := p.isLt
  rw [blk1_apply m c t 0 q, blk1_apply m c t 1 q, blk1_apply m c t 2 q, blk1_apply m c t 3 q,
    ext_eq_hist m c hx t tail b hb q (htail q) p.val (t.val % 4 * 1024 + p.val) (by omega) rfl,
    ext_eq_hist m c hx t tail b hb q (htail q) (p.val + 1) (t.val % 4 * 1024 + p.val + 1) (by omega) (by omega),
    ext_eq_hist m c hx t tail b hb q (htail q) (p.val + 2) (t.val % 4 * 1024 + p.val + 2) (by omega) (by omega),
    ext_eq_hist m c hx t tail b hb q (htail q) (p.val + 3) (t.val % 4 * 1024 + p.val + 3) (by omega) (by omega)]

/-- WHAT POINT t WRITES BACK is block t of the result array. -/
theorem flushed_eq (c : Dev nD) (hx : XReal m c) (t : Fin cfg0.N) :
    (dats m 0 c).flushed 4 t
      = ((cfg0.win 4).blk t).view.read (Elt Ideal) (result (aX m c) (aW m c) (aG m c) (aB m c)) := by
  have hT : t.val < 32 := lt_of_lt_of_eq t.isLt (N32)
  have hb : (⟨t.val / 4, by omega⟩ : Fin 8).val = t.val / 4 := rfl
  by_cases h0 : t.val % 4 = 0
  · rw [flushed4_A m c t h0,
      block_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    exact block_eq m c hx t _ ⟨t.val / 4, by omega⟩ hb (fun q n => tail_first m c t h0 _ q n)
  · rw [flushed4_B m c t h0,
      block_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _]
    exact block_eq m c hx t _ ⟨t.val / 4, by omega⟩ hb (fun q n => tail_next m c hx t ⟨t.val - 1, Nat.lt_of_le_of_lt (Nat.sub_le _ _) t.isLt⟩ rfl h0 _ hb q n)

/-- An index of the result array is in point t's block iff each coordinate is in the block's range on its axis. -/
theorem mem_blk (t : Fin cfg0.N) (i : S8x4096x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v3).slice (win0_4.rect t)).set ↔ _
  rw [View.set_slice_whole, Rect.mem_set_unit]
  exact Iff.rfl

/-- Every index of the result array is in the block of the point that handles its batch row and time block. -/
theorem cover (i : S8x4096x2048.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 2048 := (i 2).isLt
  refine ⟨⟨4 * (i 0).val + (i 1).val / 1024, by rw [N32]; omega⟩, flush0_4 _, ?_⟩
  obtain ⟨-, -, -, e0, e1, e2, -⟩ := idx_facts ⟨4 * (i 0).val + (i 1).val / 1024, by rw [N32]; omega⟩
  rw [mem_blk]
  intro a
  match a with
  | ⟨0, _⟩ => show win0_4.index _ (0 : Fin 3) * 1 ≤ (i 0).val ∧ (i 0).val < win0_4.index _ (0 : Fin 3) * 1 + 1; rw [e0]; dsimp only; omega
  | ⟨1, _⟩ => show win0_4.index _ (1 : Fin 3) * 1024 ≤ (i 1).val ∧ (i 1).val < win0_4.index _ (1 : Fin 3) * 1024 + 1024; rw [e1]; dsimp only; omega
  | ⟨2, _⟩ => show win0_4.index _ (2 : Fin 3) * 2048 ≤ (i 2).val ∧ (i 2).val < win0_4.index _ (2 : Fin 3) * 2048 + 2048; rw [e2]; omega

/-- THE RESULT ARRAY after the run is the result function of the four argument arrays. -/
theorem final (c : Dev nD) (hx : XReal m c) :
    (dats m 0 c).arrAt 4 cfg0.N = result (aX m c) (aW m c) (aG m c) (aB m c) :=
  (dats m 0 c).arrAt_eq_of_cover 4 (result (aX m c) (aW m c) (aG m c) (aB m c)) (fun t _ => flushed_eq m c hx t) cover

/-- The kernel's run, read: the result array at the result function, the arguments unchanged. -/
theorem run (hx : ∀ c, XReal m c) : θ_run defs (onTc (τ := τ) (main (F := Ideal))) ⟨m, fun _ => 0, ρ⟩ fun r => ∀ c : Dev nD,
      r.2.mem ((c : Thread nD τ).loc main_v3) = result (aX m c) (aW m c) (aG m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hx c)), (h c).2⟩) (run_blocks m ρ)

end Cert.KernelIdeal.Blocks

end
-- ==== Proof.RefValue.lean ====
/-
  The reference program computes the specification.

  The reference is read one operation at a time: the mean and the variance of a row as quotients by 2048, the
  normalised entry, the sequence padded by three zero positions in front along time, the four windows of that padded
  sequence at the offsets 0, 1, 2, 3, the four taps accumulated first to last from the zero word, and finally
  y * (1 / (1 + e^(-y))). Each step is stated at explicit coordinates (b, t, d), and the last theorem assembles them.
-/
import proofs.«102148_j23570780520523_2_alg».proof.Proof.Spec
import proofs.«102148_j23570780520523_2_alg».proof.Proof.RefRead
import Idealize.ShloMosaic.Lib.KernelVsHost
import Idealize.ShloMosaic.Lib.DynamicIndex
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.ReadP Cert.ShortConv
open Idealize.ShloMosaic Idealize.ShloMosaic.ValueIdx Idealize.ShloMosaic.StableHlo
open scoped BigOperators

/-! ## Index equations: the composed index maps of the layout operations, at explicit coordinates -/

/-- The k-th entry of the row that the keepdims column (b, s, 0) was reduced from. -/
theorem idx_row0 (b : Fin 8) (s : Fin 4096) (k : Fin 2048) :
    idx_main_v0 (idx_main_v1 (ix3 b s (0 : Fin 1))) k = ix3 b s k :=
  funext fun a => Fin.ext (by match a with | ⟨0, _⟩ => rfl | ⟨1, _⟩ => rfl | ⟨2, _⟩ => rfl)

theorem idx_row7 (b : Fin 8) (s : Fin 4096) (k : Fin 2048) :
    idx_main_v7 (idx_main_v8 (ix3 b s (0 : Fin 1))) k = ix3 b s k :=
  funext fun a => Fin.ext (by match a with | ⟨0, _⟩ => rfl | ⟨1, _⟩ => rfl | ⟨2, _⟩ => rfl)

/-- A broadcast of a keepdims column along the channels reads the column's one entry. -/
theorem idx_col4 (b : Fin 8) (s : Fin 4096) (d : Fin 2048) :
    idx_main_v4 (ix3 b s d) = ix3 b s (0 : Fin 1) :=
  funext fun a => Fin.ext (by match a with | ⟨0, _⟩ => rfl | ⟨1, _⟩ => rfl | ⟨2, _⟩ => rfl)

theorem idx_col11 (b : Fin 8) (s : Fin 4096) (d : Fin 2048) :
    idx_main_v11 (ix3 b s d) = ix3 b s (0 : Fin 1) :=
  funext fun a => Fin.ext (by match a with | ⟨0, _⟩ => rfl | ⟨1, _⟩ => rfl | ⟨2, _⟩ => rfl)

theorem idx_col16 (b : Fin 8) (s : Fin 4096) (d : Fin 2048) :
    idx_main_v16 (ix3 b s d) = ix3 b s (0 : Fin 1) :=
  funext fun a => Fin.ext (by match a with | ⟨0, _⟩ => rfl | ⟨1, _⟩ => rfl | ⟨2, _⟩ => rfl)

/-- A per-channel vector broadcast over batch and time reads its entry at the channel. -/
theorem idx_chan19 (b : Fin 8) (s : Fin 4096) (d : Fin 2048) :
    idx_main_v18 (idx_main_v19 (ix3 b s d)) = ix1 d :=
  funext fun a => Fin.ext (by match a with | ⟨0, _⟩ => rfl)

theorem idx_chan22 (b : Fin 8) (s : Fin 4096) (d : Fin 2048) :
    idx_main_v21 (idx_main_v22 (ix3 b s d)) = ix1 d :=
  funext fun a => Fin.ext (by match a with | ⟨0, _⟩ => rfl)

/-! ## The row statistics -/

/-- The mean: the row's sum from the zero word, divided by 2048. -/
theorem mean_eq (x0 : Seqs) (b : Fin 8) (s : Fin 4096) :
    val_main_v3 (F := Ideal) x0 (ix3 b s (0 : Fin 1)) = meanQ (row x0 b s) := by
  rw [val_main_v3_apply, val_main_v1_apply, val_main_v0_apply, val_main_cst_apply, val_main_v2_apply,
    val_main_cst_0_apply]
  simp only [idx_row0, Ideal.hostDivf_def, Ideal.ofBits_def, Ideal.ofBits_zero_f32, zero_add]
  rfl

/-- The squared deviation of one entry from its row's mean. -/
theorem sqdev_eq (x0 : Seqs) (b : Fin 8) (s : Fin 4096) (k : Fin 2048) :
    val_main_v6 (F := Ideal) x0 (ix3 b s k)
      = (x0 (ix3 b s k) - meanQ (row x0 b s)) * (x0 (ix3 b s k) - meanQ (row x0 b s)) := by
  rw [val_main_v6_apply, val_main_v5_apply, val_main_v4_apply, idx_col4, mean_eq]
  rfl

/-- The variance: the sum of the squared deviations from the zero word, divided by 2048. -/
theorem var_eq (x0 : Seqs) (b : Fin 8) (s : Fin 4096) :
    val_main_v10 (F := Ideal) x0 (ix3 b s (0 : Fin 1)) = varQ (row x0 b s) := by
  rw [val_main_v10_apply, val_main_v8_apply, val_main_v7_apply, val_main_cst_1_apply, val_main_v9_apply,
    val_main_cst_2_apply]
  simp only [idx_row7, sqdev_eq, Ideal.hostDivf_def, Ideal.ofBits_def, Ideal.ofBits_zero_f32, zero_add]
  rfl

/-! ## The normalised entry -/

theorem xn_eq (x0 : Seqs) (x2 x3 : Chan) (b : Fin 8) (s : Fin 4096) (d : Fin 2048) :
    val_main_v23 (F := Ideal) x0 x2 x3 (ix3 b s d) = xn x0 x2 x3 b s d := by
  rw [val_main_v23_apply, val_main_v20_apply, val_main_v17_apply, val_main_v12_apply, val_main_v11_apply,
    val_main_v16_apply, val_main_v15_apply, val_main_v14_apply, val_main_v13_apply, val_main_cst_3_apply,
    val_main_v19_apply, val_main_v18_apply, val_main_v22_apply, val_main_v21_apply,
    idx_col11, idx_col16, idx_chan19, idx_chan22, mean_eq, var_eq]
  rfl

/-! ## The sequence padded by three zero positions in front -/

/-- The padding value: the integer zero converted to a float is zero. -/
theorem padval_eq (i : S_.Idx) : val_main_call0_v0 (F := Ideal) i = 0 := by
  rw [val_main_call0_v0_apply, val_main_c_apply]
  show ((((0#32 : BitVec 32).toInt : ℤ) : ℝ) : EReal) = 0
  simp

/-- The padded sequence at position n: zero for n < 3, the normalised entry at time n - 3 from there on. -/
theorem pad_eq (x0 : Seqs) (x2 x3 : Chan) (b : Fin 8) (n : Fin 4099) (d : Fin 2048) :
    val_main_v24 (F := Ideal) x0 x2 x3 (ix3 b n d) = hist x0 x2 x3 b d n.val := by
  unfold val_main_v24 hist
  by_cases hn : 3 ≤ n.val
  · have h : 3 ≤ n.val ∧ n.val - 3 < 4096 := ⟨hn, by have := n.isLt; omega⟩
    rw [dif_pos h]
    refine (pad_apply_of_inside _ _ _ _ _ _ _ (ix3 b n d) (ix3 b (⟨n.val - 3, h.2⟩ : Fin 4096) d) (fun a => ?_)).trans
      (xn_eq x0 x2 x3 b ⟨n.val - 3, h.2⟩ d)
    match a with
    | ⟨0, _⟩ => show b.val = 0 + b.val * (0 + 1); omega
    | ⟨1, _⟩ => show n.val = 3 + (n.val - 3) * (0 + 1); omega
    | ⟨2, _⟩ => show d.val = 0 + d.val * (0 + 1); omega
  · rw [dif_neg (fun h => hn h.1)]
    refine (pad_apply_of_not_inside _ _ _ _ _ _ _ (ix3 b n d) (⟨1, by decide⟩ : Fin 3) (fun h => hn ?_)).trans
      (padval_eq _)
    exact h.1

/-! ## The four windows of the padded sequence -/

/-- A window of 4096 positions of a padded sequence, starting at a constant offset j ≤ 3 along time: the start is
    inside the operand, so the window at time t reads position t + j. -/
theorem window_apply (y : S8x4099x2048.Idx → EReal) (start : Fin 3 → Int) (j : Nat) (hj : j ≤ 3)
    (h : S8x4099x2048.Slices (fun _ => 0) S8x4096x2048)
    (hs : ∀ a, start a = (((![0, j, 0] : Fin 3 → Nat) a : Nat) : Int))
    (b : Fin 8) (t : Fin 4096) (d : Fin 2048) :
    Host.dynamicSlice S8x4096x2048 y start h (ix3 b t d)
      = y (ix3 b (⟨t.val + j, by have := t.isLt; omega⟩ : Fin 4099) d) := by
  have hoff : S8x4099x2048.Slices (![0, j, 0] : Fin 3 → Nat) S8x4096x2048 :=
    ⟨rfl, fun a => by
      match a with
      | ⟨0, _⟩ => show 0 + 8 ≤ 8; omega
      | ⟨1, _⟩ => show j + 4096 ≤ 4099; omega
      | ⟨2, _⟩ => show 0 + 2048 ≤ 2048; omega⟩
  rw [Host.dynamicSlice_eq_extractStridedSlice S8x4096x2048 y start (![0, j, 0] : Fin 3 → Nat) h hoff hs]
  refine extractStridedSlice_apply _ y hoff (ix3 b t d) _ (fun a => ?_)
  match a with
  | ⟨0, _⟩ => show b.val = 0 + b.val; omega
  | ⟨1, _⟩ => show t.val + j = j + t.val; omega
  | ⟨2, _⟩ => show d.val = 0 + d.val; omega

theorem win0_eq (x0 : Seqs) (x2 x3 : Chan) (b : Fin 8) (t : Fin 4096) (d : Fin 2048) :
    val_main_v28 (F := Ideal) x0 x2 x3 (ix3 b t d) = hist x0 x2 x3 b d t.val := by
  unfold val_main_v28
  refine (window_apply _ _ 0 (by omega) _ (fun a => ?_) b t d).trans (pad_eq x0 x2 x3 b _ d)
  match a with
  | ⟨0, _⟩ => rfl
  | ⟨1, _⟩ => rfl
  | ⟨2, _⟩ => rfl

theorem win1_eq (x0 : Seqs) (x2 x3 : Chan) (b : Fin 8) (t : Fin 4096) (d : Fin 2048) :
    val_main_v35 (F := Ideal) x0 x2 x3 (ix3 b t d) = hist x0 x2 x3 b d (t.val + 1) := by
  unfold val_main_v35
  refine (window_apply _ _ 1 (by omega) _ (fun a => ?_) b t d).trans (pad_eq x0 x2 x3 b _ d)
  match a with
  | ⟨0, _⟩ => rfl
  | ⟨1, _⟩ => rfl
  | ⟨2, _⟩ => rfl

theorem win2_eq (x0 : Seqs) (x2 x3 : Chan) (b : Fin 8) (t : Fin 4096) (d : Fin 2048) :
    val_main_v42 (F := Ideal) x0 x2 x3 (ix3 b t d) = hist x0 x2 x3 b d (t.val + 2) := by
  unfold val_main_v42
  refine (window_apply _ _ 2 (by omega) _ (fun a => ?_) b t d).trans (pad_eq x0 x2 x3 b _ d)
  match a with
  | ⟨0, _⟩ => rfl
  | ⟨1, _⟩ => rfl
  | ⟨2, _⟩ => rfl

theorem win3_eq (x0 : Seqs) (x2 x3 : Chan) (b : Fin 8) (t : Fin 4096) (d : Fin 2048) :
    val_main_v49 (F := Ideal) x0 x2 x3 (ix3 b t d) = hist x0 x2 x3 b d (t.val + 3) := by
  unfold val_main_v49
  refine (window_apply _ _ 3 (by omega) _ (fun a => ?_) b t d).trans (pad_eq x0 x2 x3 b _ d)
  match a with
  | ⟨0, _⟩ => rfl
  | ⟨1, _⟩ => rfl
  | ⟨2, _⟩ => rfl

/-! ## The four tap weights: column j of the filter, broadcast over batch and time -/

theorem tap0_eq (x1 : Taps) (b : Fin 8) (t : Fin 4096) (d : Fin 2048) :
    val_main_v30 (F := Ideal) x1 (ix3 b t d) = x1 (ix2 d (0 : Fin 4)) := by
  rw [val_main_v30_apply, val_main_v29_apply, val_main_v27_apply, val_main_v26_apply]
  exact congrArg x1 (funext fun a => Fin.ext (by
    match a with
    | ⟨0, _⟩ => exact Nat.div_one _
    | ⟨1, _⟩ => rfl))

theorem tap1_eq (x1 : Taps) (b : Fin 8) (t : Fin 4096) (d : Fin 2048) :
    val_main_v37 (F := Ideal) x1 (ix3 b t d) = x1 (ix2 d (1 : Fin 4)) := by
  rw [val_main_v37_apply, val_main_v36_apply, val_main_v34_apply, val_main_v33_apply]
  exact congrArg x1 (funext fun a => Fin.ext (by
    match a with
    | ⟨0, _⟩ => exact Nat.div_one _
    | ⟨1, _⟩ => rfl))

theorem tap2_eq (x1 : Taps) (b : Fin 8) (t : Fin 4096) (d : Fin 2048) :
    val_main_v44 (F := Ideal) x1 (ix3 b t d) = x1 (ix2 d (2 : Fin 4)) := by
  rw [val_main_v44_apply, val_main_v43_apply, val_main_v41_apply, val_main_v40_apply]
  exact congrArg x1 (funext fun a => Fin.ext (by
    match a with
    | ⟨0, _⟩ => exact Nat.div_one _
    | ⟨1, _⟩ => rfl))

theorem tap3_eq (x1 : Taps) (b : Fin 8) (t : Fin 4096) (d : Fin 2048) :
    val_main_v51 (F := Ideal) x1 (ix3 b t d) = x1 (ix2 d (3 : Fin 4)) := by
  rw [val_main_v51_apply, val_main_v50_apply, val_main_v48_apply, val_main_v47_apply]
  exact congrArg x1 (funext fun a => Fin.ext (by
    match a with
    | ⟨0, _⟩ => exact Nat.div_one _
    | ⟨1, _⟩ => rfl))

/-! ## The filter: four taps accumulated first to last from the zero word -/

theorem conv_eq (x0 : Seqs) (x1 : Taps) (x2 x3 : Chan) (b : Fin 8) (t : Fin 4096) (d : Fin 2048) :
    val_main_v53 (F := Ideal) x0 x1 x2 x3 (ix3 b t d) = conv x0 x1 x2 x3 b t d := by
  rw [val_main_v53_apply, val_main_v46_apply, val_main_v39_apply, val_main_v32_apply, val_main_v25_apply,
    val_main_cst_4_apply, val_main_v31_apply, val_main_v38_apply, val_main_v45_apply, val_main_v52_apply,
    tap0_eq, tap1_eq, tap2_eq, tap3_eq, win0_eq, win1_eq, win2_eq, win3_eq]
  rfl

/-! ## The tail: y * (1 / (1 + e^(-y))) -/

theorem ref_apply (x0 : Seqs) (x1 : Taps) (x2 x3 : Chan) (b : Fin 8) (t : Fin 4096) (d : Fin 2048) :
    val_main_v60 (F := Ideal) x0 x1 x2 x3 (ix3 b t d) = silu (conv x0 x1 x2 x3 b t d) := by
  rw [val_main_v60_apply, val_main_v59_apply, val_main_v58_apply, val_main_cst_18_apply, val_main_v57_apply,
    val_main_v56_apply, val_main_cst_17_apply, val_main_v55_apply, val_main_v54_apply, conv_eq]
  simp only [Ideal.mulf_def, Ideal.hostDivf_def, Ideal.addf_def, Ideal.hostUnary_exp_def, Ideal.hostNegf_def,
    Ideal.negf_def, Ideal.ofBits_def, Ideal.ofBits_one_f32]
  rfl

/-! ## The reference is the specification -/

theorem ref_eq (x0 : Cert.ShortConv.Seqs) (x1 : Cert.ShortConv.Taps) (x2 x3 : Cert.ShortConv.Chan) :
    Cert.ReferenceIdeal.ReadP.val_main_v60 (F := Ideal) x0 x1 x2 x3 = Cert.ShortConv.result x0 x1 x2 x3 := by
  funext i
  obtain ⟨b, t, d, rfl⟩ : ∃ (b : Fin 8) (t : Fin 4096) (d : Fin 2048), i = ix3 b t d :=
    ⟨i 0, i 1, i 2, eq_ix3 i⟩
  rw [result_apply]
  exact ref_apply x0 x1 x2 x3 b t d

end Cert.ReferenceIdeal.RefValue

end
-- ==== Proof.Finite.lean ====
/-
  Every entry of the batch of sequences is a real number, under the precondition.

  The precondition is the conjunction of four statements "every |a| < +∞", one per argument array, each a reduction by
  "and" of the entrywise comparisons down to a single truth value. That the conjunction is true gives each conjunct; that
  a reduction by "and" over all axes is true gives the comparison at every index. The word 0x7F800000 (exponent field all
  ones, zero fraction) denotes +∞, and |a| is max a (−a). Of the three kinds of extended real, −∞ has |a| = +∞ and +∞ has
  |a| = +∞, neither below +∞; what is left is a real, which is its own witness.
-/
import proofs.«102148_j23570780520523_2_alg».proof.Defs
import proofs.«102148_j23570780520523_2_alg».proof.Proof.Gen.Pre_finite_inputs
import Idealize.ShloMosaic.PureOps.Ideal.Laws
import Idealize.ShloMosaic.Lib.ValueIdx
import Idealize.ShloMosaic.Lib.ReduceAll

noncomputable section

namespace Cert.ShortConv.Finite

open Idealize.ShloMosaic Idealize.ShloMosaic.ValueIdx Idealize.SL.Sem
open Cert.Pre_finite_inputs

/-- The word 0x7F800000 denotes +∞. -/
theorem inf32_eq : Ideal.ofBits .f32 0x7F800000#32 = (⊤ : EReal) := by
  simp [Ideal.ofBits, Ideal.ieee]

/-- An extended real whose absolute value compares below the word of +∞ is a real. -/
theorem real_of_abs_lt (a : EReal)
    (h : Ideal.cmp .olt (max a (-a)) (Ideal.ofBits .f32 0x7F800000#32) = 1#1) : ∃ v : ℝ, a = (v : EReal) := by
  rw [inf32_eq] at h
  have hlt : max a (-a) < ⊤ := by
    by_contra hn
    simp [Ideal.cmp, hn] at h
  induction a using EReal.rec with
  | bot => simp at hlt
  | coe v => exact ⟨v, rfl⟩
  | top => simp at hlt

/-- The result of a reduction over all axes has one index. -/
instance : Subsingleton S_.Idx := ⟨fun a b => funext fun d => d.elim0⟩

/-- The predicate decoded for its first argument: if it is true, every entry of the first array is a real. -/
theorem arg0_real [Facts] (a0 : FVec Ideal S8x4096x2048 .f32) (a1 : FVec Ideal S2048x4 .f32)
    (a2 a3 : FVec Ideal S2048 .f32) (e : fn (F := Ideal) a0 a1 a2 a3 = fun _ => 1#1) (i : S8x4096x2048.Idx) :
    ∃ v : ℝ, a0 i = (v : EReal) := by
  have e0 := congrFun e ix0
  dsimp only [fn, fn_part1] at e0
  simp only [andi] at e0
  rw [IntOp.andi_eq_one, IntOp.andi_eq_one, IntOp.andi_eq_one] at e0
  obtain ⟨⟨⟨h0, -⟩, -⟩, -⟩ := e0
  have hi := Host.reduce_andi_all _ _ _ _ _ h0 i
  exact real_of_abs_lt (a0 i) hi

/-- THE FINITENESS OF THE INPUT: under the precondition, on every device, every entry of the batch of sequences is a
    real. -/
theorem x_real [h : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8x4096x2048.Idx) :
    ∃ v : ℝ, m ((c.tc : Thread Cert.KernelIdeal.nD Cert.KernelIdeal.τ).loc Cert.KernelIdeal.main_arg0) i
      = (v : EReal) :=
  arg0_real _ _ _ _ (hpre c) i

end Cert.ShortConv.Finite

end
-- ==== Proof.lean ====
/-
  Cert.Claim for the short causal filter: a row-wise normalisation of x over its 2048 channels, a causal four-tap
  filter along time per channel, and y · 1/(1 + e^(−y)), computed by a kernel over 8 × 4 blocks of 1024 time steps that
  carries the last normalised rows from each block to the next, against the whole-array program that pads the time
  axis with three zeros in front and adds four shifted copies.

  Both programs end with the result array at one function of the four argument arrays (`Cert.ShortConv.result`):
  the kernel's run by reading, block by block, what each grid point writes back; the whole-array program's by reading
  its operations one at a time. The two differ in how the variance of a row is written — the mean of the squares less
  the squared mean in the kernel, the mean of the squared deviations in the other — which agree for rows of real
  numbers, and the precondition says every entry of x is one. The three frames are the programs' runs with the result
  forgotten, and the kernel's idealisation rewrote nothing.
-/
import proofs.«102148_j23570780520523_2_alg».proof.Defs
import proofs.«102148_j23570780520523_2_alg».proof.Proof.Gen.Kernel
import proofs.«102148_j23570780520523_2_alg».proof.Proof.Gen.Kernel.Skeleton
import proofs.«102148_j23570780520523_2_alg».proof.Proof.Gen.Kernel.Launch
import proofs.«102148_j23570780520523_2_alg».proof.Proof.Gen.Kernel.Points
import proofs.«102148_j23570780520523_2_alg».proof.Proof.Gen.Kernel.Frame
import proofs.«102148_j23570780520523_2_alg».proof.Proof.Gen.KernelIdeal
import proofs.«102148_j23570780520523_2_alg».proof.Proof.Gen.KernelIdeal.Skeleton
import proofs.«102148_j23570780520523_2_alg».proof.Proof.Gen.KernelIdeal.Launch
import proofs.«102148_j23570780520523_2_alg».proof.Proof.Gen.KernelIdeal.Points
import proofs.«102148_j23570780520523_2_alg».proof.Proof.Gen.KernelIdeal.Frame
import proofs.«102148_j23570780520523_2_alg».proof.Proof.Gen.ReferenceIdeal
import proofs.«102148_j23570780520523_2_alg».proof.Proof.Gen.Pre_finite_inputs
import proofs.«102148_j23570780520523_2_alg».proof.Proof.Gen.KernelIdeal.Value
import proofs.«102148_j23570780520523_2_alg».proof.Proof.RefRun
import proofs.«102148_j23570780520523_2_alg».proof.Proof.RefRead
import proofs.«102148_j23570780520523_2_alg».proof.Proof.KBlocks
import proofs.«102148_j23570780520523_2_alg».proof.Proof.RefValue
import proofs.«102148_j23570780520523_2_alg».proof.Proof.Finite
import Idealize.ShloMosaic.Adequacy
import Idealize.ShloMosaic.Init

noncomputable section

namespace Cert.Proof

open Idealize.ShloMosaic Idealize.SL.Sem

section Claims

theorem frame_k : Cert.frame_Kernel := fun m ρ _ => Cert.Kernel.Gen.frame m ρ

theorem frame_ki : Cert.frame_KernelIdeal := fun m ρ _ => Cert.KernelIdeal.Gen.frame m ρ

/-- The whole-array program's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- Both runs end with the result array at the result function of the same four argument arrays. -/
theorem algebraic : Cert.algebraic_KernelIdeal_ReferenceIdeal := by
  intro m ρ m' ρ' hpre hagree
  refine ⟨fun c => Cert.ShortConv.result (Cert.KernelIdeal.Blocks.aX m c) (Cert.KernelIdeal.Blocks.aW m c)
      (Cert.KernelIdeal.Blocks.aG m c) (Cert.KernelIdeal.Blocks.aB m c),
    Cert.KernelIdeal.Blocks.run m ρ (fun c i => Cert.ShortConv.Finite.x_real m hpre c i), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v60_eq, Cert.ReferenceIdeal.RefValue.ref_eq,
    (hagree c).1, (hagree c).2.1, (hagree c).2.2.1, (hagree c).2.2.2]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
